-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128 .f32) (main_arg7 : FVec F S128x64 .f32) (main_arg8 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S5000x1 : Shape := ⟨2, ![5000, 1]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 126
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S800000, .f32⟩
  | .hbm, ⟨21, _⟩ => ⟨S_, .f32⟩
  | .hbm, ⟨22, _⟩ => ⟨S50000, .f32⟩
  | .hbm, ⟨23, _⟩ => ⟨S800000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S50000x1, .f32⟩
  | .hbm, ⟨46, _⟩ => ⟨S1x128, .f32⟩
  | .hbm, ⟨47, _⟩ => ⟨S50000x128, .f32⟩
  | .hbm, ⟨48, _⟩ => ⟨S_, .f32⟩
  | .hbm, ⟨49, _⟩ => ⟨S800000, .f32⟩
  | .hbm, ⟨50, _⟩ => ⟨S_, .f32⟩
  | .hbm, ⟨51, _⟩ => ⟨S50000, .f32⟩
  | .hbm, ⟨52, _⟩ => ⟨S800000x1, .i32⟩
  | .hbm, ⟨53, _⟩ => ⟨S50000, .f32⟩
  | .hbm, ⟨54, _⟩ => ⟨S_, .f32⟩
  | .hbm, ⟨55, _⟩ => ⟨S50000, .f32⟩
  | .hbm, ⟨56, _⟩ => ⟨S50000, .f32⟩
  | .hbm, ⟨57, _⟩ => ⟨S50000, .f32⟩
  | .hbm, ⟨58, _⟩ => ⟨S_, .f32⟩
  | .hbm, ⟨59, _⟩ => ⟨S800000, .f32⟩
  | .hbm, ⟨60, _⟩ => ⟨S_, .f32⟩
  | .hbm, ⟨61, _⟩ => ⟨S50000, .f32⟩
  | .hbm, ⟨62, _⟩ => ⟨S800000x1, .i32⟩
  | .hbm, ⟨63, _⟩ => ⟨S50000, .f32⟩
  | .hbm, ⟨64, _⟩ => ⟨S_, .f32⟩
  | .hbm, ⟨65, _⟩ => ⟨S50000, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S800000x128, .f32⟩
  | .hbm, ⟨80, _⟩ => ⟨S_, .f32⟩
  | .hbm, ⟨81, _⟩ => ⟨S50000x128, .f32⟩
  | .hbm, ⟨82, _⟩ => ⟨S800000x1, .i32⟩
  | .hbm, ⟨83, _⟩ => ⟨S50000x128, .f32⟩
  | .hbm, ⟨84, _⟩ => ⟨S50000x1, .f32⟩
  | .hbm, ⟨85, _⟩ => ⟨S1x128, .f32⟩
  | .hbm, ⟨86, _⟩ => ⟨S50000x128, .f32⟩
  | .hbm, ⟨87, _⟩ => ⟨S_, .f32⟩
  | .hbm, ⟨88, _⟩ => ⟨S800000, .f32⟩
  | .hbm, ⟨89, _⟩ => ⟨S_, .f32⟩
  | .hbm, ⟨90, _⟩ => ⟨S50000, .f32⟩
  | .hbm, ⟨91, _⟩ => ⟨S800000x1, .i32⟩
  | .hbm, ⟨92, _⟩ => ⟨S50000, .f32⟩
  | .hbm, ⟨93, _⟩ => ⟨S_, .f32⟩
  | .hbm, ⟨94, _⟩ => ⟨S50000, .f32⟩
  | .hbm, ⟨95, _⟩ => ⟨S50000, .f32⟩
  | .hbm, ⟨96, _⟩ => ⟨S50000, .f32⟩
  | .hbm, ⟨97, _⟩ => ⟨S_, .f32⟩
  | .hbm, ⟨98, _⟩ => ⟨S800000, .f32⟩
  | .hbm, ⟨99, _⟩ => ⟨S_, .f32⟩
  | .hbm, ⟨100, _⟩ => ⟨S50000, .f32⟩
  | .hbm, ⟨101, _⟩ => ⟨S800000x1, .i32⟩
  | .hbm, ⟨102, _⟩ => ⟨S50000, .f32⟩
  | .hbm, ⟨103, _⟩ => ⟨S_, .f32⟩
  | .hbm, ⟨104, _⟩ => ⟨S50000, .f32⟩
  | .hbm, ⟨105, _⟩ => ⟨S50000, .f32⟩
  | .hbm, ⟨106, _⟩ => ⟨S50000, .f32⟩
  | .hbm, ⟨107, _⟩ => ⟨S50000x1, .f32⟩
  | .hbm, ⟨108, _⟩ => ⟨S50000x128, .f32⟩
  | .hbm, ⟨109, _⟩ => ⟨S50000x128, .f32⟩
  | .hbm, ⟨110, _⟩ => ⟨S_, .i32⟩
  | .hbm, ⟨111, _⟩ => ⟨S800000, .i32⟩
  | .hbm, ⟨112, _⟩ => ⟨S800000, .i1⟩
  | .hbm, ⟨113, _⟩ => ⟨S_, .i32⟩
  | .hbm, ⟨114, _⟩ => ⟨S800000, .i32⟩
  | .hbm, ⟨115, _⟩ => ⟨S800000, .i32⟩
  | .hbm, ⟨116, _⟩ => ⟨S800000, .i32⟩
  | .hbm, ⟨117, _⟩ => ⟨S800000x1, .i32⟩
  | .hbm, ⟨118, _⟩ => ⟨S800000x128, .f32⟩
  | .hbm, ⟨119, _⟩ => ⟨S_, .f32⟩
  | .hbm, ⟨120, _⟩ => ⟨S50000x128, .f32⟩
  | .hbm, ⟨121, _⟩ => ⟨S800000x1, .i32⟩
  | .hbm, ⟨122, _⟩ => ⟨S50000x128, .f32⟩
  | .hbm, ⟨123, _⟩ => ⟨S50000x1, .f32⟩
  | .hbm, ⟨124, _⟩ => ⟨S1x64, .f32⟩
  | .hbm, ⟨125, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S128x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_9 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_10 : Ref sig .tc := ⟨.hbm, 58, rfl⟩
abbrev main_v37 : Ref sig .tc := ⟨.hbm, 59, rfl⟩
abbrev main_cst_11 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_12 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_13 : Ref sig .tc := ⟨.hbm, 71, rfl⟩
abbrev main_v47 : Ref sig .tc := ⟨.hbm, 72, rfl⟩
abbrev main_v48 : Ref sig .tc := ⟨.hbm, 73, rfl⟩
abbrev main_c_14 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_15 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_16 : Ref sig .tc := ⟨.hbm, 87, rfl⟩
abbrev main_v60 : Ref sig .tc := ⟨.hbm, 88, rfl⟩
abbrev main_cst_17 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_18 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_19 : Ref sig .tc := ⟨.hbm, 97, rfl⟩
abbrev main_v67 : Ref sig .tc := ⟨.hbm, 98, rfl⟩
abbrev main_cst_20 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_21 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_22 : Ref sig .tc := ⟨.hbm, 110, rfl⟩
abbrev main_v77 : Ref sig .tc := ⟨.hbm, 111, rfl⟩
abbrev main_v78 : Ref sig .tc := ⟨.hbm, 112, rfl⟩
abbrev main_c_23 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_24 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S50000_S50000x1 : S50000.ShapeCasts S50000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v26) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v56) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v86) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v87) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v88) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v89) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 144
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S_, .f32⟩
  | 10 => ⟨S800000, .f32⟩
  | 11 => ⟨S_, .f32⟩
  | 12 => ⟨S50000, .f32⟩
  | 13 => ⟨S800000x1, .i32⟩
  | 14 => ⟨S50000, .f32⟩
  | 15 => ⟨S_, .f32⟩
  | 16 => ⟨S50000, .f32⟩
  | 17 => ⟨S50000, .f32⟩
  | 18 => ⟨S50000, .f32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .f32⟩
  | 28 => ⟨S50000, .f32⟩
  | 29 => ⟨S50000x1, .f32⟩
  | 30 => ⟨S50000x128, .f32⟩
  | 31 => ⟨S50000x128, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x128, .f32⟩
  | 41 => ⟨S_, .f32⟩
  | 42 => ⟨S50000x128, .f32⟩
  | 43 => ⟨S800000x1, .i32⟩
  | 44 => ⟨S50000x128, .f32⟩
  | 45 => ⟨S50000x1, .f32⟩
  | 46 => ⟨S50000x128, .f32⟩
  | 47 => ⟨S50000x128, .f32⟩
  | 48 => ⟨S50000x128, .f32⟩
  | 49 => ⟨S1x128, .f32⟩
  | 50 => ⟨S50000x128, .f32⟩
  | 51 => ⟨S50000x128, .f32⟩
  | 52 => ⟨S_, .f32⟩
  | 53 => ⟨S50000x128, .f32⟩
  | 54 => ⟨S50000x128, .f32⟩
  | 55 => ⟨S_, .f32⟩
  | 56 => ⟨S800000, .f32⟩
  | 57 => ⟨S_, .f32⟩
  | 58 => ⟨S50000, .f32⟩
  | 59 => ⟨S800000x1, .i32⟩
  | 60 => ⟨S50000, .f32⟩
  | 61 => ⟨S_, .f32⟩
  | 62 => ⟨S50000, .f32⟩
  | 63 => ⟨S50000, .f32⟩
  | 64 => ⟨S50000, .f32⟩
  | 65 => ⟨S_, .f32⟩
  | 66 => ⟨S800000, .f32⟩
  | 67 => ⟨S_, .f32⟩
  | 68 => ⟨S50000, .f32⟩
  | 69 => ⟨S800000x1, .i32⟩
  | 70 => ⟨S50000, .f32⟩
  | 71 => ⟨S_, .f32⟩
  | 72 => ⟨S50000, .f32⟩
  | 73 => ⟨S50000, .f32⟩
  | 74 => ⟨S50000, .f32⟩
  | 75 => ⟨S50000x1, .f32⟩
  | 76 => ⟨S50000x128, .f32⟩
  | 77 => ⟨S50000x128, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x128, .f32⟩
  | 87 => ⟨S_, .f32⟩
  | 88 => ⟨S50000x128, .f32⟩
  | 89 => ⟨S800000x1, .i32⟩
  | 90 => ⟨S50000x128, .f32⟩
  | 91 => ⟨S50000x1, .f32⟩
  | 92 => ⟨S50000x128, .f32⟩
  | 93 => ⟨S50000x128, .f32⟩
  | 94 => ⟨S50000x128, .f32⟩
  | 95 => ⟨S1x128, .f32⟩
  | 96 => ⟨S50000x128, .f32⟩
  | 97 => ⟨S50000x128, .f32⟩
  | 98 => ⟨S_, .f32⟩
  | 99 => ⟨S50000x128, .f32⟩
  | 100 => ⟨S50000x128, .f32⟩
  | 101 => ⟨S_, .f32⟩
  | 102 => ⟨S800000, .f32⟩
  | 103 => ⟨S_, .f32⟩
  | 104 => ⟨S50000, .f32⟩
  | 105 => ⟨S800000x1, .i32⟩
  | 106 => ⟨S50000, .f32⟩
  | 107 => ⟨S_, .f32⟩
  | 108 => ⟨S50000, .f32⟩
  | 109 => ⟨S50000, .f32⟩
  | 110 => ⟨S50000, .f32⟩
  | 111 => ⟨S_, .f32⟩
  | 112 => ⟨S800000, .f32⟩
  | 113 => ⟨S_, .f32⟩
  | 114 => ⟨S50000, .f32⟩
  | 115 => ⟨S800000x1, .i32⟩
  | 116 => ⟨S50000, .f32⟩
  | 117 => ⟨S_, .f32⟩
  | 118 => ⟨S50000, .f32⟩
  | 119 => ⟨S50000, .f32⟩
  | 120 => ⟨S50000, .f32⟩
  | 121 => ⟨S50000x1, .f32⟩
  | 122 => ⟨S50000x128, .f32⟩
  | 123 => ⟨S50000x128, .f32⟩
  | 124 => ⟨S_, .i32⟩
  | 125 => ⟨S800000, .i32⟩
  | 126 => ⟨S800000, .i1⟩
  | 127 => ⟨S_, .i32⟩
  | _ => ⟨S50000x128, .f32⟩

abbrev hbmTy0_1 (i : Nat) : BufTy := match i % 128 with
  | 0 => ⟨S800000, .i32⟩
  | 1 => ⟨S800000, .i32⟩
  | 2 => ⟨S800000, .i32⟩
  | 3 => ⟨S800000x1, .i32⟩
  | 4 => ⟨S800000x128, .f32⟩
  | 5 => ⟨S_, .f32⟩
  | 6 => ⟨S50000x128, .f32⟩
  | 7 => ⟨S800000x1, .i32⟩
  | 8 => ⟨S50000x128, .f32⟩
  | 9 => ⟨S50000x1, .f32⟩
  | 10 => ⟨S50000x128, .f32⟩
  | 11 => ⟨S50000x128, .f32⟩
  | 12 => ⟨S50000x64, .f32⟩
  | 13 => ⟨S1x64, .f32⟩
  | 14 => ⟨S50000x64, .f32⟩
  | 15 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call0_cst : Ref sig .tc := ⟨.hbm, 52, rfl⟩
abbrev main_call0_v0 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_10 : Ref sig .tc := ⟨.hbm, 65, rfl⟩
abbrev main_v42 : Ref sig .tc := ⟨.hbm, 66, rfl⟩
abbrev main_cst_11 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_12 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_13 : Ref sig .tc := ⟨.hbm, 78, rfl⟩
abbrev main_v52 : Ref sig .tc := ⟨.hbm, 79, rfl⟩
abbrev main_v53 : Ref sig .tc := ⟨.hbm, 80, rfl⟩
abbrev main_c_14 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_15 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_call1_cst : Ref sig .tc := ⟨.hbm, 98, rfl⟩
abbrev main_call1_v0 : Ref sig .tc := ⟨.hbm, 99, rfl⟩
abbrev main_v69 : Ref sig .tc := ⟨.hbm, 100, rfl⟩
abbrev main_cst_16 : Ref sig .tc := ⟨.hbm, 101, rfl⟩
abbrev main_v70 : Ref sig .tc := ⟨.hbm, 102, rfl⟩
abbrev main_cst_17 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_18 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_19 : Ref sig .tc := ⟨.hbm, 111, rfl⟩
abbrev main_v77 : Ref sig .tc := ⟨.hbm, 112, rfl⟩
abbrev main_cst_20 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_21 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_c_22 : Ref sig .tc := ⟨.hbm, 124, rfl⟩
abbrev main_v87 : Ref sig .tc := ⟨.hbm, 125, rfl⟩
abbrev main_v88 : Ref sig .tc := ⟨.hbm, 126, rfl⟩
abbrev main_c_23 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_24 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.LibPlainDot.lean ====
/-
  A plain matrix product read at an entry, at the ideal instance (every float an extended real).

  For an `a × k` matrix and a `k × b` matrix contracted over their shared axis into the zero matrix, entry
  `(p, q)` of the product is the sum over `j` of entry `(p, j)` of the first times entry `(j, q)` of the second.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The dimension numbers of a plain matrix product: `a × k` times `k × b` into `a × b`. -/
abbrev plainDot (a k b : Nat)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The first operand's row coordinate is the result's row coordinate. -/
theorem lhs_row {a k b : Nat} (wf : DotDims.WF ⟨2, ![a, k]⟩ ⟨2, ![k, b]⟩ ⟨2, ![a, b]⟩ [1] [0] [0] [1] [] [])
    (i : (⟨2, ![a, b]⟩ : Shape).Idx) (c : (plainDot a k b wf).contr.Idx) :
    ((plainDot a k b wf).lhsIdx i c 0).val = (i 0).val := by
  unfold DotDims.lhsIdx
  rw [dif_neg (show ¬(0 : Fin (⟨2, ![a, k]⟩ : Shape).rank) ∈ (plainDot a k b wf).lhsBatch from List.not_mem_nil),
    dif_pos (show (0 : Fin (⟨2, ![a, k]⟩ : Shape).rank) ∈ (plainDot a k b wf).lhsNonContracting from List.mem_singleton.mpr rfl)]
  rfl

/-- The second operand's column coordinate is the result's column coordinate. -/
theorem rhs_col {a k b : Nat} (wf : DotDims.WF ⟨2, ![a, k]⟩ ⟨2, ![k, b]⟩ ⟨2, ![a, b]⟩ [1] [0] [0] [1] [] [])
    (i : (⟨2, ![a, b]⟩ : Shape).Idx) (c : (plainDot a k b wf).contr.Idx) :
    ((plainDot a k b wf).rhsIdx i c 1).val = (i 1).val := by
  unfold DotDims.rhsIdx
  rw [dif_neg (show ¬(1 : Fin (⟨2, ![k, b]⟩ : Shape).rank) ∈ (plainDot a k b wf).rhsBatch from List.not_mem_nil),
    dif_pos (show (1 : Fin (⟨2, ![k, b]⟩ : Shape).rank) ∈ (plainDot a k b wf).rhsNonContracting from List.mem_singleton.mpr rfl)]
  rfl

/-- Entry `(p, q)` of a plain matrix product accumulated into the zero matrix. -/
theorem matmul_zero_apply {a k b : Nat} {φ₁ φ₂ : FTy}
    (wf : DotDims.WF ⟨2, ![a, k]⟩ ⟨2, ![k, b]⟩ ⟨2, ![a, b]⟩ [1] [0] [0] [1] [] [])
    (l : FVec Ideal ⟨2, ![a, k]⟩ φ₁) (r : FVec Ideal ⟨2, ![k, b]⟩ φ₂) (p : Fin a) (q : Fin b) :
    FloatOps.matmul (plainDot a k b wf) none l r (constant ⟨2, ![a, b]⟩ .f32 0x00000000#32) (ix2 p q)
      = ∑ j : Fin k, l (ix2 p j) * r (ix2 j q) := by
  rw [Ideal.matmul_constant_zero_apply, ← Equiv.sum_comp (contrEquiv1 (plainDot a k b wf) k rfl rfl).symm]
  refine Finset.sum_congr rfl fun j _ => ?_
  have hj := contrEquiv1_symm_val (plainDot a k b wf) k rfl rfl j
  have el : (plainDot a k b wf).lhsIdx (ix2 p q) ((contrEquiv1 (plainDot a k b wf) k rfl rfl).symm j) = ix2 p j :=
    funext fun ax => Fin.ext (by
      match ax with
      | ⟨0, _⟩ => exact lhs_row wf _ _
      | ⟨1, _⟩ => exact ((plainDot a k b wf).lhsIdx_val_of_single rfl _ _).trans hj)
  have er : (plainDot a k b wf).rhsIdx (ix2 p q) ((contrEquiv1 (plainDot a k b wf) k rfl rfl).symm j) = ix2 j q :=
    funext fun ax => Fin.ext (by
      match ax with
      | ⟨0, _⟩ => exact ((plainDot a k b wf).rhsIdx_val_of_single rfl _ _).trans hj
      | ⟨1, _⟩ => exact rhs_col wf _ _)
  rw [el, er]

end Cert.LibPlainDot

end
-- ==== Proof.LibLayout.lean ====
/-
  Layout operations and sums along one axis of small shapes, read at an index given by coordinates, at the
  ideal instance (every float an extended real).

  A vector of length `a` kept as an `a × 1` column, and such a column broadcast along the rows of an `a × b`
  matrix, each name one entry of their operand; the sum of a matrix along its columns at row `p` is the sum
  over the column coordinate of row `p`'s entries, and the sum along its rows at column `q` the sum over the
  row coordinate of column `q`'s entries.
-/
import Idealize.ShloMosaic.PureOps.Ideal.Laws
import Idealize.ShloMosaic.Lib.ValueIdx
import Idealize.ShloMosaic.Lib.Pipeline.Value

noncomputable section

open scoped BigOperators

namespace Cert.LibLayout

open Idealize.ShloMosaic Idealize.ShloMosaic.ValueIdx

/-! ## A column of row values -/

section Layout
variable {α : Type}

/-- A vector of length `a` cast to an `a × 1` column reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to an `a × b` matrix reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Sums along one axis of a matrix -/

/-- The sum along the columns of a matrix, at row `p`: the sum of row `p`'s entries. -/
theorem sumCols_apply {n0 n1 : ℕ} (src : FVec Ideal ⟨2, ![n0, n1]⟩ .f32)
    (h : (⟨2, ![n0, n1]⟩ : Shape).Reduces [1] ⟨1, ![n0]⟩) (hφ : FKind.Formats .f32)
    (hacc : (0x00000000#32 : BitVec 32) = FKind.add.neutral .f32 hφ) (p : Fin n0) :
    multiReduction (F := Ideal) .add [1] ⟨1, ![n0]⟩ src 0x00000000#32 h hφ hacc (ix1 p)
      = ∑ k : Fin n1, src (ix2 p k) :=
  (Ideal.multiReduction_add_single src _ h hφ hacc (ix1 p)).trans
    (Finset.sum_congr rfl fun k _ => congrArg src (funext fun c => Fin.ext (by
      match c with
      | ⟨0, _⟩ => rfl
      | ⟨1, _⟩ => rfl)))

/-- The sum along the rows of a matrix, at column `q`: the sum of column `q`'s entries. -/
theorem sumRows_apply {n0 n1 : ℕ} (src : FVec Ideal ⟨2, ![n0, n1]⟩ .f32)
    (h : (⟨2, ![n0, n1]⟩ : Shape).Reduces [0] ⟨1, ![n1]⟩) (hφ : FKind.Formats .f32)
    (hacc : (0x00000000#32 : BitVec 32) = FKind.add.neutral .f32 hφ) (q : Fin n1) :
    multiReduction (F := Ideal) .add [0] ⟨1, ![n1]⟩ src 0x00000000#32 h hφ hacc (ix1 q)
      = ∑ k : Fin n0, src (ix2 k q) :=
  (Ideal.multiReduction_add_single src _ h hφ hacc (ix1 q)).trans
    (Finset.sum_congr rfl fun k _ => congrArg src (funext fun c => Fin.ext (by
      match c with
      | ⟨0, _⟩ => rfl
      | ⟨1, _⟩ => rfl)))

end Cert.LibLayout

end
-- ==== Proof.Layer.lean ====
/-
  One graph-convolution layer after aggregation, as a function of whole arrays, at the exact instance (every float
  an extended real).

  Given the aggregated features `A0` (n × k), the in-degree normalisation as a column `A1` (n × 1), the weights
  `A2` (k × d) and the bias as a row `A3` (1 × d), entry (r, q) of the layer is
      post (∑ j, (A0 (r, j) · A1 (r, 0)) · A2 (j, q) + A3 (0, q))
  where `post` is the maximum with zero in the first two layers and the identity in the last. Row r of the result
  depends on row r of `A0` and `A1` only, so a block of rows of the result is the same function of the matching
  blocks of rows.
-/
import Idealize.ShloMosaic.PureOps.Ideal.Laws
import Idealize.ShloMosaic.Lib.ValueIdx

noncomputable section

open scoped BigOperators

namespace Cert.Layer

open Idealize.ShloMosaic Idealize.ShloMosaic.ValueIdx

/-- Entry (r, q) of a layer. -/
def layerAt {n k d : ℕ} (post : EReal → EReal) (A0 : (⟨2, ![n, k]⟩ : Shape).Idx → EReal)
    (A1 : (⟨2, ![n, 1]⟩ : Shape).Idx → EReal) (A2 : (⟨2, ![k, d]⟩ : Shape).Idx → EReal)
    (A3 : (⟨2, ![1, d]⟩ : Shape).Idx → EReal) (r : Fin n) (q : Fin d) : EReal :=
  post ((∑ j : Fin k, (A0 (ix2 r j) * A1 (ix2 r (0 : Fin 1))) * A2 (ix2 j q)) + A3 (ix2 (0 : Fin 1) q))

/-- A layer as one function of the array index. -/
def layer {n k d : ℕ} (post : EReal → EReal) (A0 : (⟨2, ![n, k]⟩ : Shape).Idx → EReal)
    (A1 : (⟨2, ![n, 1]⟩ : Shape).Idx → EReal) (A2 : (⟨2, ![k, d]⟩ : Shape).Idx → EReal)
    (A3 : (⟨2, ![1, d]⟩ : Shape).Idx → EReal) : (⟨2, ![n, d]⟩ : Shape).Idx → EReal :=
  fun i => layerAt post A0 A1 A2 A3 (i 0) (i 1)

/-- Row p of a block and row r of an array give the same entry when the two rows of features agree, their
    normalisation entries agree, and weights and bias are the same. -/
theorem layerAt_congr {n n' k d : ℕ} (post : EReal → EReal)
    (x0 : (⟨2, ![n, k]⟩ : Shape).Idx → EReal) (x1 : (⟨2, ![n, 1]⟩ : Shape).Idx → EReal)
    (A0 : (⟨2, ![n', k]⟩ : Shape).Idx → EReal) (A1 : (⟨2, ![n', 1]⟩ : Shape).Idx → EReal)
    (x2 A2 : (⟨2, ![k, d]⟩ : Shape).Idx → EReal) (x3 A3 : (⟨2, ![1, d]⟩ : Shape).Idx → EReal)
    (p : Fin n) (r : Fin n') (q : Fin d)
    (h0 : ∀ j : Fin k, x0 (ix2 p j) = A0 (ix2 r j)) (h1 : x1 (ix2 p (0 : Fin 1)) = A1 (ix2 r (0 : Fin 1)))
    (h2 : x2 = A2) (h3 : x3 = A3) :
    layerAt post x0 x1 x2 x3 p q = layerAt post A0 A1 A2 A3 r q := by
  subst h2 h3
  unfold layerAt
  rw [h1]
  simp only [h0]

end Cert.Layer

end
-- ==== Proof.Pay.lean ====
/-
  The body of each of the three layer kernels, read at one entry, at the exact instance (every float an extended real).

  A layer kernel takes a block of 5000 rows of the aggregated features `x0`, the matching 5000 entries of the
  in-degree normalisation as a column `x1`, the whole weight matrix `x2` and the bias as a row `x3`. It scales each
  row of `x0` by its entry of `x1`, multiplies by `x2` into a zero accumulator, adds the bias along the rows and, in the
  first two layers, takes the maximum with zero. Roundings to bf16 on the way into the product are the identity here.
  So entry (p, q) of what it stores is  max (∑ j, (x0 (p, j) · x1 (p, 0)) · x2 (j, q) + x3 (0, q)) 0,  without the
  maximum in the last layer.
-/
import proofs.«101985_j61435212202423_1_alg».proof.Proof.Gen.KernelIdeal.Skeleton
import proofs.«101985_j61435212202423_1_alg».proof.Proof.LibPlainDot
import proofs.«101985_j61435212202423_1_alg».proof.Proof.LibLayout
import proofs.«101985_j61435212202423_1_alg».proof.Proof.Layer
import Idealize.ShloMosaic.Lib.ValueLayout
import Idealize.ShloMosaic.Lib.Pipeline.Value

noncomputable section

open scoped BigOperators

namespace Cert.KernelIdeal.Hand

open Cert.KernelIdeal Cert.KernelIdeal.Gen Cert.KernelIdeal.Facts₀ Cert.KernelIdeal.Facts
open Idealize.ShloMosaic Idealize.ShloMosaic.ValueIdx

/-- The first two layers end with the maximum with the zero word's value. -/
abbrev reluPost : EReal → EReal := fun z => max z (Ideal.ofBits .f32 0x00000000#32)

/-- Entry (p, q) of the block layer 1's kernel stores. -/
theorem pay0_apply (x0 : Vec Ideal S5000x128 .f32) (x1 : Vec Ideal S5000x1 .f32) (x2 : Vec Ideal S128x128 .f32)
    (x3 : Vec Ideal S1x128 .f32) (p : Fin 5000) (q : Fin 128) :
    k0_pay1 (F := Ideal) x0 x1 x2 x3 (ix2 p q)
      = max ((∑ j : Fin 128, (x0 (ix2 p j) * x1 (ix2 p (0 : Fin 1))) * x2 (ix2 j q)) + x3 (ix2 (0 : Fin 1) q))
          (Ideal.ofBits .f32 0x00000000#32) := by
  unfold k0_pay1
  simp only [shapeCast_self]
  rw [maximumf_apply, addf_apply, broadcast_apply]
  refine congrArg₂ max (congrArg₂ (· + ·) ?_ ?_) rfl
  · refine (Cert.LibPlainDot.matmul_zero_apply Facts₀.dot_S5000x128_S128x128_S5000x128_1_0_0_1_n_n_wf _ _ p q).trans ?_
    refine Finset.sum_congr rfl fun j _ => ?_
    rw [truncf_apply, truncf_apply, mulf_apply, Cert.LibLayout.broadcastTo_a1_ab_apply]
  · exact broadcastTo_1b_ab_apply x3 _ p q

/-- Entry (p, q) of the block layer 2's kernel stores. -/
theorem pay1_apply (x0 : Vec Ideal S5000x128 .f32) (x1 : Vec Ideal S5000x1 .f32) (x2 : Vec Ideal S128x128 .f32)
    (x3 : Vec Ideal S1x128 .f32) (p : Fin 5000) (q : Fin 128) :
    k1_pay1 (F := Ideal) x0 x1 x2 x3 (ix2 p q)
      = max ((∑ j : Fin 128, (x0 (ix2 p j) * x1 (ix2 p (0 : Fin 1))) * x2 (ix2 j q)) + x3 (ix2 (0 : Fin 1) q))
          (Ideal.ofBits .f32 0x00000000#32) := by
  unfold k1_pay1
  simp only [shapeCast_self]
  rw [maximumf_apply, addf_apply, broadcast_apply]
  refine congrArg₂ max (congrArg₂ (· + ·) ?_ ?_) rfl
  · refine (Cert.LibPlainDot.matmul_zero_apply Facts₀.dot_S5000x128_S128x128_S5000x128_1_0_0_1_n_n_wf _ _ p q).trans ?_
    refine Finset.sum_congr rfl fun j _ => ?_
    rw [truncf_apply, truncf_apply, mulf_apply, Cert.LibLayout.broadcastTo_a1_ab_apply]
  · exact broadcastTo_1b_ab_apply x3 _ p q

/-- Entry (p, q) of the block layer 3's kernel stores. -/
theorem pay2_apply (x0 : Vec Ideal S5000x128 .f32) (x1 : Vec Ideal S5000x1 .f32) (x2 : Vec Ideal S128x64 .f32)
    (x3 : Vec Ideal S1x64 .f32) (p : Fin 5000) (q : Fin 64) :
    k2_pay1 (F := Ideal) x0 x1 x2 x3 (ix2 p q)
      = (∑ j : Fin 128, (x0 (ix2 p j) * x1 (ix2 p (0 : Fin 1))) * x2 (ix2 j q)) + x3 (ix2 (0 : Fin 1) q) := by
  unfold k2_pay1
  simp only [shapeCast_self]
  rw [addf_apply]
  refine congrArg₂ (· + ·) ?_ ?_
  · refine (Cert.LibPlainDot.matmul_zero_apply Facts₀.dot_S5000x128_S128x64_S5000x64_1_0_0_1_n_n_wf _ _ p q).trans ?_
    refine Finset.sum_congr rfl fun j _ => ?_
    rw [truncf_apply, truncf_apply, mulf_apply, Cert.LibLayout.broadcastTo_a1_ab_apply]
  · exact broadcastTo_1b_ab_apply x3 _ p q

/-- The same entry as the layer function of the kernel's four loaded blocks. -/
theorem pay0_layer (x0 : Vec Ideal S5000x128 .f32) (x1 : Vec Ideal S5000x1 .f32) (x2 : Vec Ideal S128x128 .f32)
    (x3 : Vec Ideal S1x128 .f32) (p : Fin 5000) (q : Fin 128) :
    k0_pay1 (F := Ideal) x0 x1 x2 x3 (ix2 p q) = Cert.Layer.layerAt reluPost x0 x1 x2 x3 p q :=
  pay0_apply x0 x1 x2 x3 p q

/-- The same entry as the layer function of the kernel's four loaded blocks. -/
theorem pay1_layer (x0 : Vec Ideal S5000x128 .f32) (x1 : Vec Ideal S5000x1 .f32) (x2 : Vec Ideal S128x128 .f32)
    (x3 : Vec Ideal S1x128 .f32) (p : Fin 5000) (q : Fin 128) :
    k1_pay1 (F := Ideal) x0 x1 x2 x3 (ix2 p q) = Cert.Layer.layerAt reluPost x0 x1 x2 x3 p q :=
  pay1_apply x0 x1 x2 x3 p q

/-- The same entry as the layer function of the kernel's four loaded blocks. -/
theorem pay2_layer (x0 : Vec Ideal S5000x128 .f32) (x1 : Vec Ideal S5000x1 .f32) (x2 : Vec Ideal S128x64 .f32)
    (x3 : Vec Ideal S1x64 .f32) (p : Fin 5000) (q : Fin 64) :
    k2_pay1 (F := Ideal) x0 x1 x2 x3 (ix2 p q) = Cert.Layer.layerAt (fun z => z) x0 x1 x2 x3 p q :=
  pay2_apply x0 x1 x2 x3 p q

end Cert.KernelIdeal.Hand

end
-- ==== Proof.Region0.lean ====
/-
  Layer 1's kernel launch, read as one function of whole arrays, at the exact instance.

  The launch runs over 10 grid points. Point t works on rows 5000·t … 5000·t + 4999: it reads that block of rows of the
  aggregated features and of the normalisation column, the whole weight matrix and the whole bias row, and writes back
  the same block of rows of the result. The ten blocks tile the 50000 rows, so after the launch the result array is the
  layer function (`Cert.Layer.layer`) of the four arrays as the launch found them.
-/
import proofs.«101985_j61435212202423_1_alg».proof.Proof.Gen.KernelIdeal.Frame
import proofs.«101985_j61435212202423_1_alg».proof.Proof.Pay
import Idealize.ShloMosaic.Lib.Pipeline.Value

noncomputable section

open scoped BigOperators

namespace Cert.KernelIdeal.Hand.R0

open Cert.KernelIdeal Cert.KernelIdeal.Gen Cert.KernelIdeal.Facts₀ Cert.KernelIdeal.Facts Cert.KernelIdeal.Hand
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of each window at each grid point: the two row-blocked inputs and the output move with the
    point along the rows; weights and bias stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of the feature block at point t is row 5000·t + p of the feature array. -/
theorem blk0_apply (c : Dev nD) (t : Fin cfg0.N) (p : Fin 5000) (j : Fin 128) (r : Fin 50000)
    (hr : r.val = t.val * 5000 + p.val) :
    (iblk0 V c 0 t : Vec Ideal S5000x128 .f32) (ix2 p j)
      = (V c (Pipeline.arrRef spec0 0) : S50000x128.Idx → EReal) (ix2 r j) := by
  obtain ⟨e0, e1, -⟩ := idx_facts t
  unfold iblk0
  rw [View.read_apply]
  show (V c (Pipeline.arrRef spec0 0) : S50000x128.Idx → EReal) _ = _
  refine congrArg _ (funext fun a => Fin.ext ?_)
  match a with
  | ⟨0, _⟩ => show win0_0.index t 0 * 5000 + 1 * p.val = r.val; omega
  | ⟨1, _⟩ => show win0_0.index t 1 * 128 + 1 * j.val = j.val; omega

/-- Entry p of the normalisation block at point t is entry 5000·t + p of the normalisation column. -/
theorem blk1_apply (c : Dev nD) (t : Fin cfg0.N) (p : Fin 5000) (r : Fin 50000)
    (hr : r.val = t.val * 5000 + p.val) :
    (iblk0 V c 1 t : Vec Ideal S5000x1 .f32) (ix2 p (0 : Fin 1))
      = (V c (Pipeline.arrRef spec0 1) : S50000x1.Idx → EReal) (ix2 r (0 : Fin 1)) := by
  obtain ⟨-, -, e2, e3, -⟩ := idx_facts t
  unfold iblk0
  rw [View.read_apply]
  show (V c (Pipeline.arrRef spec0 1) : S50000x1.Idx → EReal) _ = _
  refine congrArg _ (funext fun a => Fin.ext ?_)
  match a with
  | ⟨0, _⟩ => show win0_1.index t 0 * 5000 + 1 * p.val = r.val; omega
  | ⟨1, _⟩ => show win0_1.index t 1 * 1 + 1 * 0 = 0; omega

/-- The weight block at every point is the whole weight matrix. -/
theorem blk2_eq (c : Dev nD) (t : Fin cfg0.N) :
    (iblk0 V c 2 t : Vec Ideal S128x128 .f32) = (V c (Pipeline.arrRef spec0 2) : S128x128.Idx → EReal) := by
  obtain ⟨-, -, -, -, e4, e5, -⟩ := idx_facts t
  funext y
  unfold iblk0
  rw [View.read_apply]
  show (V c (Pipeline.arrRef spec0 2) : S128x128.Idx → EReal) _ = _
  refine congrArg _ (funext fun a => Fin.ext ?_)
  match a with
  | ⟨0, _⟩ => show win0_2.index t 0 * 128 + 1 * (y 0).val = (y 0).val; omega
  | ⟨1, _⟩ => show win0_2.index t 1 * 128 + 1 * (y 1).val = (y 1).val; omega

/-- The bias block at every point is the whole bias row. -/
theorem blk3_eq (c : Dev nD) (t : Fin cfg0.N) :
    (iblk0 V c 3 t : Vec Ideal S1x128 .f32) = (V c (Pipeline.arrRef spec0 3) : S1x128.Idx → EReal) := by
  obtain ⟨-, -, -, -, -, -, e6, e7, -⟩ := idx_facts t
  funext y
  unfold iblk0
  rw [View.read_apply]
  show (V c (Pipeline.arrRef spec0 3) : S1x128.Idx → EReal) _ = _
  refine congrArg _ (funext fun a => Fin.ext ?_)
  match a with
  | ⟨0, _⟩ => show win0_3.index t 0 * 1 + 1 * (y 0).val = (y 0).val; omega
  | ⟨1, _⟩ => show win0_3.index t 1 * 128 + 1 * (y 1).val = (y 1).val; omega

/-- The layer of the four arrays as the launch finds them. -/
abbrev result (c : Dev nD) : S50000x128.Idx → EReal :=
  Cert.Layer.layer reluPost (V c (Pipeline.arrRef spec0 0) : S50000x128.Idx → EReal)
    (V c (Pipeline.arrRef spec0 1) : S50000x1.Idx → EReal) (V c (Pipeline.arrRef spec0 2) : S128x128.Idx → EReal)
    (V c (Pipeline.arrRef spec0 3) : S1x128.Idx → EReal)

/-- What point t writes back is block t of the layer of the whole arrays. -/
theorem flushed_eq (c : Dev nD) (t : Fin cfg0.N) :
    (dat0 V c).flushed 4 t = ((cfg0.win 4).blk t).view.read (Elt Ideal) (result V c) := by
  show (cfg0.win 4).cut (grid0.coords t) ((dat0 V c).after 4 t) = _
  rw [after0_4]
  unfold out0_4
  rw [View.canon_unit_zero hz]
  simp only [View.ld_unit_zero (S := S5000x128) hz, View.ld_unit_zero (S := S5000x1) hz,
    View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  have hN : cfg0.N = 10 := N_0
  have ht : t.val < 10 := hN ▸ t.isLt
  obtain ⟨-, -, -, -, -, -, -, -, e8, e9⟩ := idx_facts t
  have hemb : ((cfg0.win 4).blk t).view.emb (ix2 p q)
      = (ix2 (⟨t.val * 5000 + p.val, by omega⟩ : Fin 50000) q : S50000x128.Idx) :=
    funext fun a => Fin.ext (by
      match a with
      | ⟨0, _⟩ => show win0_4.index t 0 * 5000 + 1 * p.val = t.val * 5000 + p.val; omega
      | ⟨1, _⟩ => show win0_4.index t 1 * 128 + 1 * q.val = q.val; omega)
  rw [View.read_apply]
  show k0_pay1 (F := Ideal) (iblk0 V c 0 t) (iblk0 V c 1 t) (iblk0 V c 2 t) (iblk0 V c 3 t) (ix2 p q)
    = result V c (((cfg0.win 4).blk t).view.emb (ix2 p q))
  rw [hemb]
  refine (pay0_layer (iblk0 V c 0 t) (iblk0 V c 1 t) (iblk0 V c 2 t) (iblk0 V c 3 t) p q).trans ?_
  show _ = Cert.Layer.layerAt reluPost (V c (Pipeline.arrRef spec0 0) : S50000x128.Idx → EReal)
    (V c (Pipeline.arrRef spec0 1) : S50000x1.Idx → EReal) (V c (Pipeline.arrRef spec0 2) : S128x128.Idx → EReal)
    (V c (Pipeline.arrRef spec0 3) : S1x128.Idx → EReal) (⟨t.val * 5000 + p.val, by omega⟩ : Fin 50000) q
  exact Cert.Layer.layerAt_congr reluPost _ _ _ _ _ _ _ _ p ⟨t.val * 5000 + p.val, by omega⟩ q
    (fun j => blk0_apply V c t p j _ rfl) (blk1_apply V c t p _ rfl) (blk2_eq V c t) (blk3_eq V c t)

/-- An index of the result array is in point t's block iff its coordinates are in the block's range on each axis. -/
theorem mem_blk (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v29).slice (win0_4.rect t)).set ↔ _
  rw [View.set_slice_whole, Rect.mem_set_unit]
  exact Iff.rfl

/-- Every row of the result lies in the block of the point that owns it: row r in point r / 5000's block. -/
theorem cover (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 10 := N_0
  have hlt : (i 0).val / 5000 < cfg0.N := by rw [hN]; omega
  obtain ⟨-, -, -, -, -, -, -, -, e8, e9⟩ := idx_facts ⟨(i 0).val / 5000, hlt⟩
  refine ⟨⟨(i 0).val / 5000, hlt⟩, flush0_4 _, ?_⟩
  rw [mem_blk]
  intro a
  match a with
  | ⟨0, _⟩ =>
    show win0_4.index ⟨(i 0).val / 5000, hlt⟩ 0 * 5000 ≤ (i 0).val
      ∧ (i 0).val < win0_4.index ⟨(i 0).val / 5000, hlt⟩ 0 * 5000 + 5000
    rw [e8]; show (i 0).val / 5000 * 5000 ≤ (i 0).val ∧ (i 0).val < (i 0).val / 5000 * 5000 + 5000; omega
  | ⟨1, _⟩ =>
    show win0_4.index ⟨(i 0).val / 5000, hlt⟩ 1 * 128 ≤ (i 1).val
      ∧ (i 1).val < win0_4.index ⟨(i 0).val / 5000, hlt⟩ 1 * 128 + 128
    rw [e9]; omega

/-- After the launch the result array holds the layer of the four arrays as the launch found them. -/
theorem final (c : Dev nD) : (dat0 V c).arrAt 4 cfg0.N = result V c :=
  (dat0 V c).arrAt_eq_of_cover 4 (result V c) (fun t _ => flushed_eq V c t) (cover)

end Cert.KernelIdeal.Hand.R0

end
-- ==== Proof.Region1.lean ====
/-
  Layer 2's kernel launch, read as one function of whole arrays, at the exact instance.

  The launch runs over 10 grid points. Point t works on rows 5000·t … 5000·t + 4999: it reads that block of rows of the
  aggregated features and of the normalisation column, the whole weight matrix and the whole bias row, and writes back
  the same block of rows of the result. The ten blocks tile the 50000 rows, so after the launch the result array is the
  layer function (`Cert.Layer.layer`) of the four arrays as the launch found them.
-/
import proofs.«101985_j61435212202423_1_alg».proof.Proof.Gen.KernelIdeal.Frame
import proofs.«101985_j61435212202423_1_alg».proof.Proof.Pay
import Idealize.ShloMosaic.Lib.Pipeline.Value

noncomputable section

open scoped BigOperators

namespace Cert.KernelIdeal.Hand.R1

open Cert.KernelIdeal Cert.KernelIdeal.Gen Cert.KernelIdeal.Facts₀ Cert.KernelIdeal.Facts Cert.KernelIdeal.Hand
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of each window at each grid point: the two row-blocked inputs and the output move with the
    point along the rows; weights and bias stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of the feature block at point t is row 5000·t + p of the feature array. -/
theorem blk0_apply (c : Dev nD) (t : Fin cfg1.N) (p : Fin 5000) (j : Fin 128) (r : Fin 50000)
    (hr : r.val = t.val * 5000 + p.val) :
    (iblk1 V c 0 t : Vec Ideal S5000x128 .f32) (ix2 p j)
      = (V c (Pipeline.arrRef spec1 0) : S50000x128.Idx → EReal) (ix2 r j) := by
  obtain ⟨e0, e1, -⟩ := idx_facts t
  unfold iblk1
  rw [View.read_apply]
  show (V c (Pipeline.arrRef spec1 0) : S50000x128.Idx → EReal) _ = _
  refine congrArg _ (funext fun a => Fin.ext ?_)
  match a with
  | ⟨0, _⟩ => show win1_0.index t 0 * 5000 + 1 * p.val = r.val; omega
  | ⟨1, _⟩ => show win1_0.index t 1 * 128 + 1 * j.val = j.val; omega

/-- Entry p of the normalisation block at point t is entry 5000·t + p of the normalisation column. -/
theorem blk1_apply (c : Dev nD) (t : Fin cfg1.N) (p : Fin 5000) (r : Fin 50000)
    (hr : r.val = t.val * 5000 + p.val) :
    (iblk1 V c 1 t : Vec Ideal S5000x1 .f32) (ix2 p (0 : Fin 1))
      = (V c (Pipeline.arrRef spec1 1) : S50000x1.Idx → EReal) (ix2 r (0 : Fin 1)) := by
  obtain ⟨-, -, e2, e3, -⟩ := idx_facts t
  unfold iblk1
  rw [View.read_apply]
  show (V c (Pipeline.arrRef spec1 1) : S50000x1.Idx → EReal) _ = _
  refine congrArg _ (funext fun a => Fin.ext ?_)
  match a with
  | ⟨0, _⟩ => show win1_1.index t 0 * 5000 + 1 * p.val = r.val; omega
  | ⟨1, _⟩ => show win1_1.index t 1 * 1 + 1 * 0 = 0; omega

/-- The weight block at every point is the whole weight matrix. -/
theorem blk2_eq (c : Dev nD) (t : Fin cfg1.N) :
    (iblk1 V c 2 t : Vec Ideal S128x128 .f32) = (V c (Pipeline.arrRef spec1 2) : S128x128.Idx → EReal) := by
  obtain ⟨-, -, -, -, e4, e5, -⟩ := idx_facts t
  funext y
  unfold iblk1
  rw [View.read_apply]
  show (V c (Pipeline.arrRef spec1 2) : S128x128.Idx → EReal) _ = _
  refine congrArg _ (funext fun a => Fin.ext ?_)
  match a with
  | ⟨0, _⟩ => show win1_2.index t 0 * 128 + 1 * (y 0).val = (y 0).val; omega
  | ⟨1, _⟩ => show win1_2.index t 1 * 128 + 1 * (y 1).val = (y 1).val; omega

/-- The bias block at every point is the whole bias row. -/
theorem blk3_eq (c : Dev nD) (t : Fin cfg1.N) :
    (iblk1 V c 3 t : Vec Ideal S1x128 .f32) = (V c (Pipeline.arrRef spec1 3) : S1x128.Idx → EReal) := by
  obtain ⟨-, -, -, -, -, -, e6, e7, -⟩ := idx_facts t
  funext y
  unfold iblk1
  rw [View.read_apply]
  show (V c (Pipeline.arrRef spec1 3) : S1x128.Idx → EReal) _ = _
  refine congrArg _ (funext fun a => Fin.ext ?_)
  match a with
  | ⟨0, _⟩ => show win1_3.index t 0 * 1 + 1 * (y 0).val = (y 0).val; omega
  | ⟨1, _⟩ => show win1_3.index t 1 * 128 + 1 * (y 1).val = (y 1).val; omega

/-- The layer of the four arrays as the launch finds them. -/
abbrev result (c : Dev nD) : S50000x128.Idx → EReal :=
  Cert.Layer.layer reluPost (V c (Pipeline.arrRef spec1 0) : S50000x128.Idx → EReal)
    (V c (Pipeline.arrRef spec1 1) : S50000x1.Idx → EReal) (V c (Pipeline.arrRef spec1 2) : S128x128.Idx → EReal)
    (V c (Pipeline.arrRef spec1 3) : S1x128.Idx → EReal)

/-- What point t writes back is block t of the layer of the whole arrays. -/
theorem flushed_eq (c : Dev nD) (t : Fin cfg1.N) :
    (dat1 V c).flushed 4 t = ((cfg1.win 4).blk t).view.read (Elt Ideal) (result V c) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz,
    View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  have hN : cfg1.N = 10 := N_1
  have ht : t.val < 10 := hN ▸ t.isLt
  obtain ⟨-, -, -, -, -, -, -, -, e8, e9⟩ := idx_facts t
  have hemb : ((cfg1.win 4).blk t).view.emb (ix2 p q)
      = (ix2 (⟨t.val * 5000 + p.val, by omega⟩ : Fin 50000) q : S50000x128.Idx) :=
    funext fun a => Fin.ext (by
      match a with
      | ⟨0, _⟩ => show win1_4.index t 0 * 5000 + 1 * p.val = t.val * 5000 + p.val; omega
      | ⟨1, _⟩ => show win1_4.index t 1 * 128 + 1 * q.val = q.val; omega)
  rw [View.read_apply]
  show k1_pay1 (F := Ideal) (iblk1 V c 0 t) (iblk1 V c 1 t) (iblk1 V c 2 t) (iblk1 V c 3 t) (ix2 p q)
    = result V c (((cfg1.win 4).blk t).view.emb (ix2 p q))
  rw [hemb]
  refine (pay1_layer (iblk1 V c 0 t) (iblk1 V c 1 t) (iblk1 V c 2 t) (iblk1 V c 3 t) p q).trans ?_
  show _ = Cert.Layer.layerAt reluPost (V c (Pipeline.arrRef spec1 0) : S50000x128.Idx → EReal)
    (V c (Pipeline.arrRef spec1 1) : S50000x1.Idx → EReal) (V c (Pipeline.arrRef spec1 2) : S128x128.Idx → EReal)
    (V c (Pipeline.arrRef spec1 3) : S1x128.Idx → EReal) (⟨t.val * 5000 + p.val, by omega⟩ : Fin 50000) q
  exact Cert.Layer.layerAt_congr reluPost _ _ _ _ _ _ _ _ p ⟨t.val * 5000 + p.val, by omega⟩ q
    (fun j => blk0_apply V c t p j _ rfl) (blk1_apply V c t p _ rfl) (blk2_eq V c t) (blk3_eq V c t)

/-- An index of the result array is in point t's block iff its coordinates are in the block's range on each axis. -/
theorem mem_blk (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v59).slice (win1_4.rect t)).set ↔ _
  rw [View.set_slice_whole, Rect.mem_set_unit]
  exact Iff.rfl

/-- Every row of the result lies in the block of the point that owns it: row r in point r / 5000's block. -/
theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  have hlt : (i 0).val / 5000 < cfg1.N := by rw [hN]; omega
  obtain ⟨-, -, -, -, -, -, -, -, e8, e9⟩ := idx_facts ⟨(i 0).val / 5000, hlt⟩
  refine ⟨⟨(i 0).val / 5000, hlt⟩, flush1_4 _, ?_⟩
  rw [mem_blk]
  intro a
  match a with
  | ⟨0, _⟩ =>
    show win1_4.index ⟨(i 0).val / 5000, hlt⟩ 0 * 5000 ≤ (i 0).val
      ∧ (i 0).val < win1_4.index ⟨(i 0).val / 5000, hlt⟩ 0 * 5000 + 5000
    rw [e8]; show (i 0).val / 5000 * 5000 ≤ (i 0).val ∧ (i 0).val < (i 0).val / 5000 * 5000 + 5000; omega
  | ⟨1, _⟩ =>
    show win1_4.index ⟨(i 0).val / 5000, hlt⟩ 1 * 128 ≤ (i 1).val
      ∧ (i 1).val < win1_4.index ⟨(i 0).val / 5000, hlt⟩ 1 * 128 + 128
    rw [e9]; omega

/-- After the launch the result array holds the layer of the four arrays as the launch found them. -/
theorem final (c : Dev nD) : (dat1 V c).arrAt 4 cfg1.N = result V c :=
  (dat1 V c).arrAt_eq_of_cover 4 (result V c) (fun t _ => flushed_eq V c t) (cover)

end Cert.KernelIdeal.Hand.R1

end
-- ==== Proof.Region2.lean ====
/-
  Layer 3's kernel launch, read as one function of whole arrays, at the exact instance.

  The launch runs over 10 grid points. Point t works on rows 5000·t … 5000·t + 4999: it reads that block of rows of the
  aggregated features and of the normalisation column, the whole weight matrix and the whole bias row, and writes back
  the same block of rows of the result. The ten blocks tile the 50000 rows, so after the launch the result array is the
  layer function (`Cert.Layer.layer`) of the four arrays as the launch found them.
-/
import proofs.«101985_j61435212202423_1_alg».proof.Proof.Gen.KernelIdeal.Frame
import proofs.«101985_j61435212202423_1_alg».proof.Proof.Pay
import Idealize.ShloMosaic.Lib.Pipeline.Value

noncomputable section

open scoped BigOperators

namespace Cert.KernelIdeal.Hand.R2

open Cert.KernelIdeal Cert.KernelIdeal.Gen Cert.KernelIdeal.Facts₀ Cert.KernelIdeal.Facts Cert.KernelIdeal.Hand
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of each window at each grid point: the two row-blocked inputs and the output move with the
    point along the rows; weights and bias stay at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row p of the feature block at point t is row 5000·t + p of the feature array. -/
theorem blk0_apply (c : Dev nD) (t : Fin cfg2.N) (p : Fin 5000) (j : Fin 128) (r : Fin 50000)
    (hr : r.val = t.val * 5000 + p.val) :
    (iblk2 V c 0 t : Vec Ideal S5000x128 .f32) (ix2 p j)
      = (V c (Pipeline.arrRef spec2 0) : S50000x128.Idx → EReal) (ix2 r j) := by
  obtain ⟨e0, e1, -⟩ := idx_facts t
  unfold iblk2
  rw [View.read_apply]
  show (V c (Pipeline.arrRef spec2 0) : S50000x128.Idx → EReal) _ = _
  refine congrArg _ (funext fun a => Fin.ext ?_)
  match a with
  | ⟨0, _⟩ => show win2_0.index t 0 * 5000 + 1 * p.val = r.val; omega
  | ⟨1, _⟩ => show win2_0.index t 1 * 128 + 1 * j.val = j.val; omega

/-- Entry p of the normalisation block at point t is entry 5000·t + p of the normalisation column. -/
theorem blk1_apply (c : Dev nD) (t : Fin cfg2.N) (p : Fin 5000) (r : Fin 50000)
    (hr : r.val = t.val * 5000 + p.val) :
    (iblk2 V c 1 t : Vec Ideal S5000x1 .f32) (ix2 p (0 : Fin 1))
      = (V c (Pipeline.arrRef spec2 1) : S50000x1.Idx → EReal) (ix2 r (0 : Fin 1)) := by
  obtain ⟨-, -, e2, e3, -⟩ := idx_facts t
  unfold iblk2
  rw [View.read_apply]
  show (V c (Pipeline.arrRef spec2 1) : S50000x1.Idx → EReal) _ = _
  refine congrArg _ (funext fun a => Fin.ext ?_)
  match a with
  | ⟨0, _⟩ => show win2_1.index t 0 * 5000 + 1 * p.val = r.val; omega
  | ⟨1, _⟩ => show win2_1.index t 1 * 1 + 1 * 0 = 0; omega

/-- The weight block at every point is the whole weight matrix. -/
theorem blk2_eq (c : Dev nD) (t : Fin cfg2.N) :
    (iblk2 V c 2 t : Vec Ideal S128x64 .f32) = (V c (Pipeline.arrRef spec2 2) : S128x64.Idx → EReal) := by
  obtain ⟨-, -, -, -, e4, e5, -⟩ := idx_facts t
  funext y
  unfold iblk2
  rw [View.read_apply]
  show (V c (Pipeline.arrRef spec2 2) : S128x64.Idx → EReal) _ = _
  refine congrArg _ (funext fun a => Fin.ext ?_)
  match a with
  | ⟨0, _⟩ => show win2_2.index t 0 * 128 + 1 * (y 0).val = (y 0).val; omega
  | ⟨1, _⟩ => show win2_2.index t 1 * 64 + 1 * (y 1).val = (y 1).val; omega

/-- The bias block at every point is the whole bias row. -/
theorem blk3_eq (c : Dev nD) (t : Fin cfg2.N) :
    (iblk2 V c 3 t : Vec Ideal S1x64 .f32) = (V c (Pipeline.arrRef spec2 3) : S1x64.Idx → EReal) := by
  obtain ⟨-, -, -, -, -, -, e6, e7, -⟩ := idx_facts t
  funext y
  unfold iblk2
  rw [View.read_apply]
  show (V c (Pipeline.arrRef spec2 3) : S1x64.Idx → EReal) _ = _
  refine congrArg _ (funext fun a => Fin.ext ?_)
  match a with
  | ⟨0, _⟩ => show win2_3.index t 0 * 1 + 1 * (y 0).val = (y 0).val; omega
  | ⟨1, _⟩ => show win2_3.index t 1 * 64 + 1 * (y 1).val = (y 1).val; omega

/-- The layer of the four arrays as the launch finds them. -/
abbrev result (c : Dev nD) : S50000x64.Idx → EReal :=
  Cert.Layer.layer (fun z => z) (V c (Pipeline.arrRef spec2 0) : S50000x128.Idx → EReal)
    (V c (Pipeline.arrRef spec2 1) : S50000x1.Idx → EReal) (V c (Pipeline.arrRef spec2 2) : S128x64.Idx → EReal)
    (V c (Pipeline.arrRef spec2 3) : S1x64.Idx → EReal)

/-- What point t writes back is block t of the layer of the whole arrays. -/
theorem flushed_eq (c : Dev nD) (t : Fin cfg2.N) :
    (dat2 V c).flushed 4 t = ((cfg2.win 4).blk t).view.read (Elt Ideal) (result V c) := by
  show (cfg2.win 4).cut (grid2.coords t) ((dat2 V c).after 4 t) = _
  rw [after2_4]
  unfold out2_4
  rw [View.canon_unit_zero hz]
  simp only [View.ld_unit_zero (S := S5000x128) hz, View.ld_unit_zero (S := S5000x1) hz,
    View.ld_unit_zero (S := S128x64) hz, View.ld_unit_zero (S := S1x64) hz]
  funext y
  obtain ⟨p, q, rfl⟩ : ∃ (p : Fin 5000) (q : Fin 64), y = ix2 p q := ⟨y 0, y 1, eq_ix2 y⟩
  have hN : cfg2.N = 10 := N_2
  have ht : t.val < 10 := hN ▸ t.isLt
  obtain ⟨-, -, -, -, -, -, -, -, e8, e9⟩ := idx_facts t
  have hemb : ((cfg2.win 4).blk t).view.emb (ix2 p q)
      = (ix2 (⟨t.val * 5000 + p.val, by omega⟩ : Fin 50000) q : S50000x64.Idx) :=
    funext fun a => Fin.ext (by
      match a with
      | ⟨0, _⟩ => show win2_4.index t 0 * 5000 + 1 * p.val = t.val * 5000 + p.val; omega
      | ⟨1, _⟩ => show win2_4.index t 1 * 64 + 1 * q.val = q.val; omega)
  rw [View.read_apply]
  show k2_pay1 (F := Ideal) (iblk2 V c 0 t) (iblk2 V c 1 t) (iblk2 V c 2 t) (iblk2 V c 3 t) (ix2 p q)
    = result V c (((cfg2.win 4).blk t).view.emb (ix2 p q))
  rw [hemb]
  refine (pay2_layer (iblk2 V c 0 t) (iblk2 V c 1 t) (iblk2 V c 2 t) (iblk2 V c 3 t) p q).trans ?_
  show _ = Cert.Layer.layerAt (fun z => z) (V c (Pipeline.arrRef spec2 0) : S50000x128.Idx → EReal)
    (V c (Pipeline.arrRef spec2 1) : S50000x1.Idx → EReal) (V c (Pipeline.arrRef spec2 2) : S128x64.Idx → EReal)
    (V c (Pipeline.arrRef spec2 3) : S1x64.Idx → EReal) (⟨t.val * 5000 + p.val, by omega⟩ : Fin 50000) q
  exact Cert.Layer.layerAt_congr (fun z => z) _ _ _ _ _ _ _ _ p ⟨t.val * 5000 + p.val, by omega⟩ q
    (fun j => blk0_apply V c t p j _ rfl) (blk1_apply V c t p _ rfl) (blk2_eq V c t) (blk3_eq V c t)

/-- An index of the result array is in point t's block iff its coordinates are in the block's range on each axis. -/
theorem mem_blk (t : Fin cfg2.N) (i : S50000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v89).slice (win2_4.rect t)).set ↔ _
  rw [View.set_slice_whole, Rect.mem_set_unit]
  exact Iff.rfl

/-- Every row of the result lies in the block of the point that owns it: row r in point r / 5000's block. -/
theorem cover (i : S50000x64.Idx) :
    ∃ t : Fin cfg2.N, (cfg2.win 4).flush t = true ∧ i ∈ ((cfg2.win 4).blk t).view.set := by
  have hi0 : (i 0).val < 50000 := (i 0).isLt
  have hi1 : (i 1).val < 64 := (i 1).isLt
  have hN : cfg2.N = 10 := N_2
  have hlt : (i 0).val / 5000 < cfg2.N := by rw [hN]; omega
  obtain ⟨-, -, -, -, -, -, -, -, e8, e9⟩ := idx_facts ⟨(i 0).val / 5000, hlt⟩
  refine ⟨⟨(i 0).val / 5000, hlt⟩, flush2_4 _, ?_⟩
  rw [mem_blk]
  intro a
  match a with
  | ⟨0, _⟩ =>
    show win2_4.index ⟨(i 0).val / 5000, hlt⟩ 0 * 5000 ≤ (i 0).val
      ∧ (i 0).val < win2_4.index ⟨(i 0).val / 5000, hlt⟩ 0 * 5000 + 5000
    rw [e8]; show (i 0).val / 5000 * 5000 ≤ (i 0).val ∧ (i 0).val < (i 0).val / 5000 * 5000 + 5000; omega
  | ⟨1, _⟩ =>
    show win2_4.index ⟨(i 0).val / 5000, hlt⟩ 1 * 64 ≤ (i 1).val
      ∧ (i 1).val < win2_4.index ⟨(i 0).val / 5000, hlt⟩ 1 * 64 + 64
    rw [e9]; omega

/-- After the launch the result array holds the layer of the four arrays as the launch found them. -/
theorem final (c : Dev nD) : (dat2 V c).arrAt 4 cfg2.N = result V c :=
  (dat2 V c).arrAt_eq_of_cover 4 (result V c) (fun t _ => flushed_eq V c t) (cover)

end Cert.KernelIdeal.Hand.R2

end
-- ==== Proof.HostSpec.lean ====
/-
  The part of a layer that both programs compute on the host, as functions of whole arrays (at any float instance).

  `degNorm idx`: count, for each of the 50000 nodes, the edges whose endpoint word in `idx` is that node (a scatter-add
  of ones into zeros), clamp the count below by one, and take the reciprocal square root.
  `agg h src dst`: scale row v of the features `h` by `degNorm src` at v, gather for every edge the row of its source
  node (a negative source word wraps around by 50000), and scatter-add the gathered rows into zeros at the edges'
  destination nodes.
-/
import proofs.«101985_j61435212202423_1_alg».proof.Proof.Gen.KernelIdeal

noncomputable section

namespace Cert.KernelIdeal.Hand

open Cert.KernelIdeal Cert.KernelIdeal.Facts₀ Cert.KernelIdeal.Facts
open Idealize.ShloMosaic

variable {F : FTy → Type} [FloatOps F]

/-- The degree normalisation of the nodes from one endpoint word per edge. -/
def degNorm (idx : (⟨S800000, .i32⟩ : BufTy).Contents (Elt F)) : (⟨S50000, .f32⟩ : BufTy).Contents (Elt F) :=
  Host.rsqrt (maximumf
    (Host.scatterAdd scatter_S50000_S800000x1_S800000_n_0_0_1
      (broadcastInDim S50000 ![] bcast_S_S50000 (constant S_ .f32 0x00000000#32))
      (broadcastInDim S800000x1 ![0] bcast_S800000_S800000x1_0 idx)
      (broadcastInDim S800000 ![] bcast_S_S800000 (constant S_ .f32 0x3F800000#32)))
    (broadcastInDim S50000 ![] bcast_S_S50000 (constant S_ .f32 0x3F800000#32)))

/-- The aggregation of the source-normalised features along the edges. -/
def agg (h : (⟨S50000x128, .f32⟩ : BufTy).Contents (Elt F)) (src dst : (⟨S800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128
      (mulf h (broadcastInDim S50000x128 ![0, 1] bcast_S50000x1_S50000x128_0_1
        (broadcastInDim S50000x1 ![0] bcast_S50000_S50000x1_0 (degNorm src))))
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

end Cert.KernelIdeal.Hand

end
-- ==== Proof.HostK.lean ====
/-
  What the host operations before each of the three launches leave in the four buffers the launch reads, as functions of
  the buffers the stretch itself reads (at any float instance and from any contents `W`): the aggregated features
  (`agg` of the previous layer's output and the two edge-endpoint arrays), the in-degree normalisation as a column, the
  weights untouched, the bias as a row.
-/
import proofs.«101985_j61435212202423_1_alg».proof.Proof.Gen.KernelIdeal.Launch
import proofs.«101985_j61435212202423_1_alg».proof.Proof.HostSpec
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo

variable {F : FTy → Type} [FloatOps F]
variable (W : Valuation τ sig (Elt F))

/-! ## The host stretch before layer 1's launch -/

set_option maxRecDepth 8192 in
set_option maxHeartbeats 4000000 in
/-- The aggregated features the launch reads. -/
theorem host0_m : StableHlo.after (hostOps0 (F := F)) W (Proc.devRef .tc main_v26)
    = agg (W (Proc.devRef .tc main_arg0)) (W (Proc.devRef .tc main_arg1)) (W (Proc.devRef .tc main_arg2)) := by
  after_results_simp
  rfl

set_option maxRecDepth 8192 in
set_option maxHeartbeats 4000000 in
/-- The in-degree normalisation, kept as a column. -/
theorem host0_n : StableHlo.after (hostOps0 (F := F)) W (Proc.devRef .tc main_v27)
    = shapeCast S50000x1 (degNorm (W (Proc.devRef .tc main_arg2))) Facts₀.shapeCasts_S50000_S50000x1 := by
  after_results_simp
  rfl

set_option maxRecDepth 8192 in
set_option maxHeartbeats 4000000 in
/-- The weights are not written by the stretch. -/
theorem host0_w : StableHlo.after (hostOps0 (F := F)) W (Proc.devRef .tc main_arg3) = W (Proc.devRef .tc main_arg3) := by
  after_results_simp

set_option maxRecDepth 8192 in
set_option maxHeartbeats 4000000 in
/-- The bias, kept as a row. -/
theorem host0_b : StableHlo.after (hostOps0 (F := F)) W (Proc.devRef .tc main_v28)
    = shapeCast S1x128 (W (Proc.devRef .tc main_arg4)) Facts₀.shapeCasts_S128_S1x128 := by
  after_results_simp
  rfl

/-! ## The host stretch before layer 2's launch -/

set_option maxRecDepth 8192 in
set_option maxHeartbeats 4000000 in
/-- The aggregated features the launch reads. -/
theorem host1_m : StableHlo.after (hostOps1 (F := F)) W (Proc.devRef .tc main_v56)
    = agg (W (Proc.devRef .tc main_v29)) (W (Proc.devRef .tc main_arg1)) (W (Proc.devRef .tc main_arg2)) := by
  after_results_simp
  rfl

set_option maxRecDepth 8192 in
set_option maxHeartbeats 4000000 in
/-- The in-degree normalisation, kept as a column. -/
theorem host1_n : StableHlo.after (hostOps1 (F := F)) W (Proc.devRef .tc main_v57)
    = shapeCast S50000x1 (degNorm (W (Proc.devRef .tc main_arg2))) Facts₀.shapeCasts_S50000_S50000x1 := by
  after_results_simp
  rfl

set_option maxRecDepth 8192 in
set_option maxHeartbeats 4000000 in
/-- The weights are not written by the stretch. -/
theorem host1_w : StableHlo.after (hostOps1 (F := F)) W (Proc.devRef .tc main_arg5) = W (Proc.devRef .tc main_arg5) := by
  after_results_simp

set_option maxRecDepth 8192 in
set_option maxHeartbeats 4000000 in
/-- The bias, kept as a row. -/
theorem host1_b : StableHlo.after (hostOps1 (F := F)) W (Proc.devRef .tc main_v58)
    = shapeCast S1x128 (W (Proc.devRef .tc main_arg6)) Facts₀.shapeCasts_S128_S1x128 := by
  after_results_simp
  rfl

/-! ## The host stretch before layer 3's launch -/

set_option maxRecDepth 8192 in
set_option maxHeartbeats 4000000 in
/-- The aggregated features the launch reads. -/
theorem host2_m : StableHlo.after (hostOps2 (F := F)) W (Proc.devRef .tc main_v86)
    = agg (W (Proc.devRef .tc main_v59)) (W (Proc.devRef .tc main_arg1)) (W (Proc.devRef .tc main_arg2)) := by
  after_results_simp
  rfl

set_option maxRecDepth 8192 in
set_option maxHeartbeats 4000000 in
/-- The in-degree normalisation, kept as a column. -/
theorem host2_n : StableHlo.after (hostOps2 (F := F)) W (Proc.devRef .tc main_v87)
    = shapeCast S50000x1 (degNorm (W (Proc.devRef .tc main_arg2))) Facts₀.shapeCasts_S50000_S50000x1 := by
  after_results_simp
  rfl

set_option maxRecDepth 8192 in
set_option maxHeartbeats 4000000 in
/-- The weights are not written by the stretch. -/
theorem host2_w : StableHlo.after (hostOps2 (F := F)) W (Proc.devRef .tc main_arg7) = W (Proc.devRef .tc main_arg7) := by
  after_results_simp

set_option maxRecDepth 8192 in
set_option maxHeartbeats 4000000 in
/-- The bias, kept as a row. -/
theorem host2_b : StableHlo.after (hostOps2 (F := F)) W (Proc.devRef .tc main_v88)
    = shapeCast S1x64 (W (Proc.devRef .tc main_arg8)) Facts₀.shapeCasts_S64_S1x64 := by
  after_results_simp
  rfl

/-! ## Arguments a later stretch reads are not written by an earlier one -/

set_option maxRecDepth 8192 in
set_option maxHeartbeats 4000000 in
theorem host0_keep1 : StableHlo.after (hostOps0 (F := F)) W (Proc.devRef .tc main_arg1) = W (Proc.devRef .tc main_arg1) := by
  after_results_simp

set_option maxRecDepth 8192 in
set_option maxHeartbeats 4000000 in
theorem host0_keep2 : StableHlo.after (hostOps0 (F := F)) W (Proc.devRef .tc main_arg2) = W (Proc.devRef .tc main_arg2) := by
  after_results_simp

set_option maxRecDepth 8192 in
set_option maxHeartbeats 4000000 in
theorem host0_keep5 : StableHlo.after (hostOps0 (F := F)) W (Proc.devRef .tc main_arg5) = W (Proc.devRef .tc main_arg5) := by
  after_results_simp

set_option maxRecDepth 8192 in
set_option maxHeartbeats 4000000 in
theorem host0_keep6 : StableHlo.after (hostOps0 (F := F)) W (Proc.devRef .tc main_arg6) = W (Proc.devRef .tc main_arg6) := by
  after_results_simp

set_option maxRecDepth 8192 in
set_option maxHeartbeats 4000000 in
theorem host0_keep7 : StableHlo.after (hostOps0 (F := F)) W (Proc.devRef .tc main_arg7) = W (Proc.devRef .tc main_arg7) := by
  after_results_simp

set_option maxRecDepth 8192 in
set_option maxHeartbeats 4000000 in
theorem host0_keep8 : StableHlo.after (hostOps0 (F := F)) W (Proc.devRef .tc main_arg8) = W (Proc.devRef .tc main_arg8) := by
  after_results_simp

set_option maxRecDepth 8192 in
set_option maxHeartbeats 4000000 in
theorem host1_keep1 : StableHlo.after (hostOps1 (F := F)) W (Proc.devRef .tc main_arg1) = W (Proc.devRef .tc main_arg1) := by
  after_results_simp

set_option maxRecDepth 8192 in
set_option maxHeartbeats 4000000 in
theorem host1_keep2 : StableHlo.after (hostOps1 (F := F)) W (Proc.devRef .tc main_arg2) = W (Proc.devRef .tc main_arg2) := by
  after_results_simp

set_option maxRecDepth 8192 in
set_option maxHeartbeats 4000000 in
theorem host1_keep7 : StableHlo.after (hostOps1 (F := F)) W (Proc.devRef .tc main_arg7) = W (Proc.devRef .tc main_arg7) := by
  after_results_simp

set_option maxRecDepth 8192 in
set_option maxHeartbeats 4000000 in
theorem host1_keep8 : StableHlo.after (hostOps1 (F := F)) W (Proc.devRef .tc main_arg8) = W (Proc.devRef .tc main_arg8) := by
  after_results_simp

end Cert.KernelIdeal.Hand

end
-- ==== Proof.Net.lean ====
/-
  The three-layer network as one function of the nine argument arrays, at the exact instance: each layer is the layer
  function (`Cert.Layer.layer`) of the aggregated output of the layer before (`agg`), the in-degree normalisation
  (`degNorm` of the destination words) kept as a column, its weights, and its bias kept as a row; the first two layers
  end with the maximum with zero, the last does not.
-/
import proofs.«101985_j61435212202423_1_alg».proof.Proof.HostSpec
import proofs.«101985_j61435212202423_1_alg».proof.Proof.Pay

noncomputable section

namespace Cert.KernelIdeal.Hand

open Cert.KernelIdeal Cert.KernelIdeal.Facts₀ Cert.KernelIdeal.Facts
open Idealize.ShloMosaic

/-- A layer of width 128 from the previous layer's output `h`. -/
def gcn128 (post : EReal → EReal) (h : (⟨S50000x128, .f32⟩ : BufTy).Contents (Elt Ideal))
    (src dst : (⟨S800000, .i32⟩ : BufTy).Contents (Elt Ideal)) (W : (⟨S128x128, .f32⟩ : BufTy).Contents (Elt Ideal))
    (b : (⟨S128, .f32⟩ : BufTy).Contents (Elt Ideal)) : (⟨S50000x128, .f32⟩ : BufTy).Contents (Elt Ideal) :=
  Cert.Layer.layer post (agg (F := Ideal) h src dst)
    (shapeCast S50000x1 (degNorm (F := Ideal) dst) Facts₀.shapeCasts_S50000_S50000x1) W
    (shapeCast S1x128 b Facts₀.shapeCasts_S128_S1x128)

/-- A layer of width 64 from the previous layer's output `h`. -/
def gcn64 (post : EReal → EReal) (h : (⟨S50000x128, .f32⟩ : BufTy).Contents (Elt Ideal))
    (src dst : (⟨S800000, .i32⟩ : BufTy).Contents (Elt Ideal)) (W : (⟨S128x64, .f32⟩ : BufTy).Contents (Elt Ideal))
    (b : (⟨S64, .f32⟩ : BufTy).Contents (Elt Ideal)) : (⟨S50000x64, .f32⟩ : BufTy).Contents (Elt Ideal) :=
  Cert.Layer.layer post (agg (F := Ideal) h src dst)
    (shapeCast S50000x1 (degNorm (F := Ideal) dst) Facts₀.shapeCasts_S50000_S50000x1) W
    (shapeCast S1x64 b Facts₀.shapeCasts_S64_S1x64)

/-- The whole network. -/
def net (x0 : (⟨S50000x128, .f32⟩ : BufTy).Contents (Elt Ideal)) (x1 x2 : (⟨S800000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x64, .f32⟩ : BufTy).Contents (Elt Ideal)) (x8 : (⟨S64, .f32⟩ : BufTy).Contents (Elt Ideal)) :
    (⟨S50000x64, .f32⟩ : BufTy).Contents (Elt Ideal) :=
  gcn64 (fun z => z) (gcn128 reluPost (gcn128 reluPost x0 x1 x2 x3 x4) x1 x2 x5 x6) x1 x2 x7 x8

end Cert.KernelIdeal.Hand

end
-- ==== Proof.KernelRun.lean ====
/-
  The idealized kernel program's run with its result named, and that result as the network function of the arguments.

  The program is three host stretches and three launches in turn. After the last launch the result buffer holds what
  that launch's write-backs leave; each launch's result is the layer function of what its host stretch prepared; each
  host stretch reads the previous launch's result and the argument arrays, which nothing writes. Walking back from the
  last boundary to the launch memory gives the network function (`net`) of the nine arguments.
-/
import proofs.«101985_j61435212202423_1_alg».proof.Proof.Gen.KernelIdeal.Frame
import proofs.«101985_j61435212202423_1_alg».proof.Proof.Region0
import proofs.«101985_j61435212202423_1_alg».proof.Proof.Region1
import proofs.«101985_j61435212202423_1_alg».proof.Proof.Region2
import proofs.«101985_j61435212202423_1_alg».proof.Proof.HostK
import proofs.«101985_j61435212202423_1_alg».proof.Proof.Net

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## Layer 1 -/

/-- After the first launch its result buffer holds the first layer of the arguments. -/
theorem out0_eq (c : Dev nD) : W2 m ρ c (Proc.devRef .tc main_v29)
    = gcn128 reluPost (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  refine (W2_arr m ρ c 4).trans ?_
  rw [R0.final]
  show Cert.Layer.layer reluPost (StableHlo.after hostOps0 (W0 m ρ c) (Proc.devRef .tc main_v26))
    (StableHlo.after hostOps0 (W0 m ρ c) (Proc.devRef .tc main_v27))
    (StableHlo.after hostOps0 (W0 m ρ c) (Proc.devRef .tc main_arg3))
    (StableHlo.after hostOps0 (W0 m ρ c) (Proc.devRef .tc main_v28)) = _
  rw [host0_m, host0_n, host0_w, host0_b]
  rfl

/-! ## The arguments at the later boundaries: no launch and no host operation writes one -/

theorem W2_arg1 (c : Dev nD) : W2 m ρ c (Proc.devRef .tc main_arg1) = m ((c.tc : Thread nD τ).loc main_arg1) :=
  (W2_of_ne m ρ c main_arg1 (by decide)).trans (host0_keep1 (W0 m ρ c))
theorem W2_arg2 (c : Dev nD) : W2 m ρ c (Proc.devRef .tc main_arg2) = m ((c.tc : Thread nD τ).loc main_arg2) :=
  (W2_of_ne m ρ c main_arg2 (by decide)).trans (host0_keep2 (W0 m ρ c))
theorem W2_arg5 (c : Dev nD) : W2 m ρ c (Proc.devRef .tc main_arg5) = m ((c.tc : Thread nD τ).loc main_arg5) :=
  (W2_of_ne m ρ c main_arg5 (by decide)).trans (host0_keep5 (W0 m ρ c))
theorem W2_arg6 (c : Dev nD) : W2 m ρ c (Proc.devRef .tc main_arg6) = m ((c.tc : Thread nD τ).loc main_arg6) :=
  (W2_of_ne m ρ c main_arg6 (by decide)).trans (host0_keep6 (W0 m ρ c))
theorem W2_arg7 (c : Dev nD) : W2 m ρ c (Proc.devRef .tc main_arg7) = m ((c.tc : Thread nD τ).loc main_arg7) :=
  (W2_of_ne m ρ c main_arg7 (by decide)).trans (host0_keep7 (W0 m ρ c))
theorem W2_arg8 (c : Dev nD) : W2 m ρ c (Proc.devRef .tc main_arg8) = m ((c.tc : Thread nD τ).loc main_arg8) :=
  (W2_of_ne m ρ c main_arg8 (by decide)).trans (host0_keep8 (W0 m ρ c))

theorem W4_arg1 (c : Dev nD) : W4 m ρ c (Proc.devRef .tc main_arg1) = m ((c.tc : Thread nD τ).loc main_arg1) :=
  (W4_of_ne m ρ c main_arg1 (by decide)).trans ((host1_keep1 (W2 m ρ c)).trans (W2_arg1 m ρ c))
theorem W4_arg2 (c : Dev nD) : W4 m ρ c (Proc.devRef .tc main_arg2) = m ((c.tc : Thread nD τ).loc main_arg2) :=
  (W4_of_ne m ρ c main_arg2 (by decide)).trans ((host1_keep2 (W2 m ρ c)).trans (W2_arg2 m ρ c))
theorem W4_arg7 (c : Dev nD) : W4 m ρ c (Proc.devRef .tc main_arg7) = m ((c.tc : Thread nD τ).loc main_arg7) :=
  (W4_of_ne m ρ c main_arg7 (by decide)).trans ((host1_keep7 (W2 m ρ c)).trans (W2_arg7 m ρ c))
theorem W4_arg8 (c : Dev nD) : W4 m ρ c (Proc.devRef .tc main_arg8) = m ((c.tc : Thread nD τ).loc main_arg8) :=
  (W4_of_ne m ρ c main_arg8 (by decide)).trans ((host1_keep8 (W2 m ρ c)).trans (W2_arg8 m ρ c))

/-! ## Layer 2 -/

/-- After the second launch its result buffer holds the second layer of the first. -/
theorem out1_eq (c : Dev nD) : W4 m ρ c (Proc.devRef .tc main_v59)
    = gcn128 reluPost (gcn128 reluPost (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)))
        (m ((c.tc : Thread nD τ).loc main_arg1)) (m ((c.tc : Thread nD τ).loc main_arg2)) (m ((c.tc : Thread nD τ).loc main_arg5)) (m ((c.tc : Thread nD τ).loc main_arg6)) := by
  refine (W4_arr m ρ c 4).trans ?_
  rw [R1.final]
  show Cert.Layer.layer reluPost (StableHlo.after hostOps1 (W2 m ρ c) (Proc.devRef .tc main_v56))
    (StableHlo.after hostOps1 (W2 m ρ c) (Proc.devRef .tc main_v57))
    (StableHlo.after hostOps1 (W2 m ρ c) (Proc.devRef .tc main_arg5))
    (StableHlo.after hostOps1 (W2 m ρ c) (Proc.devRef .tc main_v58)) = _
  rw [host1_m, host1_n, host1_w, host1_b, out0_eq, W2_arg1, W2_arg2, W2_arg5, W2_arg6]
  rfl

/-! ## Layer 3 -/

/-- After the last launch the program's result buffer holds the network function of the arguments. -/
theorem out2_eq (c : Dev nD) : W6 m ρ c (Proc.devRef .tc main_v89)
    = net (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) := by
  refine (W6_arr m ρ c 4).trans ?_
  rw [R2.final]
  show Cert.Layer.layer (fun z => z) (StableHlo.after hostOps2 (W4 m ρ c) (Proc.devRef .tc main_v86))
    (StableHlo.after hostOps2 (W4 m ρ c) (Proc.devRef .tc main_v87))
    (StableHlo.after hostOps2 (W4 m ρ c) (Proc.devRef .tc main_arg7))
    (StableHlo.after hostOps2 (W4 m ρ c) (Proc.devRef .tc main_v88)) = _
  rw [host2_m, host2_n, host2_w, host2_b, out1_eq, W4_arg1, W4_arg2, W4_arg7, W4_arg8]
  rfl

/-! ## The run, with the result named -/

set_option backward.isDefEq.respectTransparency.types false in
/-- Every weakly fair execution of the idealized kernel program terminates, nothing faulting, with the result buffer at
    the last boundary's contents and the arguments as launched: the launch over the program's six segments, the last
    thread state read against the final state. -/
theorem run_named : θ_run defs (onTc (τ := τ) (main (F := Ideal))) ⟨m, fun _ => 0, ρ⟩ (fun r => ∀ c : Dev nD,
      r.2.mem ((c.tc : Thread nD τ).loc main_v89) = W6 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v89 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

/-- The run with the result at the network function of the arguments. -/
theorem run_net : θ_run defs (onTc (τ := τ) (main (F := Ideal))) ⟨m, fun _ => 0, ρ⟩ (fun r => ∀ c : Dev nD,
      r.2.mem ((c.tc : Thread nD τ).loc main_v89) = net (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (out2_eq m ρ c), (h c).2⟩) (run_named m ρ)

end Cert.KernelIdeal.Hand

end
-- ==== Proof.RefEq.lean ====
/-
  The reference program's result is the network function of the arguments, at the exact instance.

  The reference computes each layer on whole arrays: it scales the aggregated features by the in-degree normalisation
  broadcast along the rows, contracts with the weights, adds the bias broadcast along the columns and (in the first two
  layers) takes the maximum with zero. Read at entry (r, q) that is
      post (∑ k, (agg (r, k) · norm r) · W (k, q) + b q),
  which is the layer function (`Cert.Layer.layer`) of the aggregated features, the normalisation kept as a column, the
  weights and the bias kept as a row. The aggregation and the normalisation are the same host operations in both
  programs, so they are carried as the functions `agg` and `degNorm` and never opened.
-/
import proofs.«101985_j61435212202423_1_alg».proof.Proof.Gen.ReferenceIdeal.Read
import proofs.«101985_j61435212202423_1_alg».proof.Proof.Net
import proofs.«101985_j61435212202423_1_alg».proof.Proof.LibLayout
import Idealize.ShloMosaic.Lib.ValueLayout

noncomputable section

open scoped BigOperators

namespace Cert.ReferenceIdeal.Hand

open Cert.ReferenceIdeal Cert.ReferenceIdeal.Read
open Idealize.ShloMosaic Idealize.ShloMosaic.ValueIdx
open Cert.KernelIdeal.Hand (gcn128 gcn64 net agg degNorm reluPost)

variable (x0 : (⟨S50000x128, .f32⟩ : BufTy).Contents (Elt Ideal)) (x1 x2 : (⟨S800000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x64, .f32⟩ : BufTy).Contents (Elt Ideal)) (x8 : (⟨S64, .f32⟩ : BufTy).Contents (Elt Ideal))

/-! ## Layer 1 -/

/-- The in-degree normalisation is the shared function of the destination words. -/
theorem e13 : val_main_v13 (F := Ideal) x2 = degNorm (F := Ideal) x2 := rfl

/-- The aggregated input features are the shared function of the features and the edge words. -/
theorem e26 : val_main_v26 (F := Ideal) x0 x1 x2 = agg (F := Ideal) x0 x1 x2 := rfl

theorem lidx30 (r : Fin 50000) (q k : Fin 128) : lidx_main_v30 (ix2 r q) k = ix2 r k :=
  funext fun a => Fin.ext (by match a with | ⟨0, _⟩ => rfl | ⟨1, _⟩ => rfl)
theorem ridx30 (r : Fin 50000) (q k : Fin 128) : ridx_main_v30 (ix2 r q) k = ix2 k q :=
  funext fun a => Fin.ext (by match a with | ⟨0, _⟩ => rfl | ⟨1, _⟩ => rfl)
theorem idx27_28 (r : Fin 50000) (k : Fin 128) : idx_main_v27 (idx_main_v28 (ix2 r k)) = ix1 r :=
  funext fun a => Fin.ext (by match a with | ⟨0, _⟩ => rfl)
theorem idx31_32 (r : Fin 50000) (q : Fin 128) : idx_main_v31 (idx_main_v32 (ix2 r q)) = ix1 q :=
  funext fun a => Fin.ext (by match a with | ⟨0, _⟩ => rfl)

/-- The first layer of the reference is the layer function over the shared host part. -/
theorem layer1_eq : val_main_v34 (F := Ideal) x0 x1 x2 x3 x4 = gcn128 reluPost x0 x1 x2 x3 x4 := by
  funext i
  obtain ⟨r, q, rfl⟩ : ∃ (r : Fin 50000) (q : Fin 128), i = ix2 r q := ⟨i 0, i 1, eq_ix2 i⟩
  rw [val_main_v34_apply, val_main_v33_apply, val_main_v30_apply, val_main_v32_apply, val_main_v31_apply,
    val_main_call0_v0_apply, val_main_call0_cst_apply, idx31_32]
  have hk : ∀ k : Fin 128, val_main_v29 (F := Ideal) x0 x1 x2 (lidx_main_v30 (ix2 r q) k) * x3 (ridx_main_v30 (ix2 r q) k)
      = (agg (F := Ideal) x0 x1 x2 (ix2 r k) * degNorm (F := Ideal) x2 (ix1 r)) * x3 (ix2 k q) := fun k => by
    rw [lidx30, ridx30, val_main_v29_apply, val_main_v28_apply, val_main_v27_apply, idx27_28, e13, e26]
    rfl
  rw [Finset.sum_congr rfl fun k _ => hk k]
  unfold gcn128 Cert.Layer.layer Cert.Layer.layerAt
  show _ = reluPost ((∑ j : Fin 128, agg (F := Ideal) x0 x1 x2 (ix2 r j)
      * shapeCast Cert.KernelIdeal.S50000x1 (degNorm (F := Ideal) x2) _ (ix2 r (0 : Fin 1)) * x3 (ix2 j q))
    + shapeCast Cert.KernelIdeal.S1x128 x4 _ (ix2 (0 : Fin 1) q))
  rw [Cert.LibLayout.shapeCast_a_a1_apply, shapeCast_a_1a_apply]
  rfl

/-! ## Layer 2 -/

theorem e48 : val_main_v48 (F := Ideal) x2 = degNorm (F := Ideal) x2 := rfl

/-- The second layer aggregates the first layer's output. -/
theorem e61 : val_main_v61 (F := Ideal) x0 x1 x2 x3 x4
    = agg (F := Ideal) (val_main_v34 (F := Ideal) x0 x1 x2 x3 x4) x1 x2 := rfl

theorem lidx65 (r : Fin 50000) (q k : Fin 128) : lidx_main_v65 (ix2 r q) k = ix2 r k :=
  funext fun a => Fin.ext (by match a with | ⟨0, _⟩ => rfl | ⟨1, _⟩ => rfl)
theorem ridx65 (r : Fin 50000) (q k : Fin 128) : ridx_main_v65 (ix2 r q) k = ix2 k q :=
  funext fun a => Fin.ext (by match a with | ⟨0, _⟩ => rfl | ⟨1, _⟩ => rfl)
theorem idx62_63 (r : Fin 50000) (k : Fin 128) : idx_main_v62 (idx_main_v63 (ix2 r k)) = ix1 r :=
  funext fun a => Fin.ext (by match a with | ⟨0, _⟩ => rfl)
theorem idx66_67 (r : Fin 50000) (q : Fin 128) : idx_main_v66 (idx_main_v67 (ix2 r q)) = ix1 q :=
  funext fun a => Fin.ext (by match a with | ⟨0, _⟩ => rfl)

/-- The second layer of the reference is the layer function of the first layer's output. -/
theorem layer2_eq : val_main_v69 (F := Ideal) x0 x1 x2 x3 x4 x5 x6
    = gcn128 reluPost (val_main_v34 (F := Ideal) x0 x1 x2 x3 x4) x1 x2 x5 x6 := by
  funext i
  obtain ⟨r, q, rfl⟩ : ∃ (r : Fin 50000) (q : Fin 128), i = ix2 r q := ⟨i 0, i 1, eq_ix2 i⟩
  rw [val_main_v69_apply, val_main_v68_apply, val_main_v65_apply, val_main_v67_apply, val_main_v66_apply,
    val_main_call1_v0_apply, val_main_call1_cst_apply, idx66_67]
  have hk : ∀ k : Fin 128, val_main_v64 (F := Ideal) x0 x1 x2 x3 x4 (lidx_main_v65 (ix2 r q) k) * x5 (ridx_main_v65 (ix2 r q) k)
      = (agg (F := Ideal) (val_main_v34 (F := Ideal) x0 x1 x2 x3 x4) x1 x2 (ix2 r k) * degNorm (F := Ideal) x2 (ix1 r))
          * x5 (ix2 k q) := fun k => by
    rw [lidx65, ridx65, val_main_v64_apply, val_main_v63_apply, val_main_v62_apply, idx62_63, e48, e61]
    rfl
  rw [Finset.sum_congr rfl fun k _ => hk k]
  unfold gcn128 Cert.Layer.layer Cert.Layer.layerAt
  show _ = reluPost ((∑ j : Fin 128, agg (F := Ideal) (val_main_v34 (F := Ideal) x0 x1 x2 x3 x4) x1 x2 (ix2 r j)
      * shapeCast Cert.KernelIdeal.S50000x1 (degNorm (F := Ideal) x2) _ (ix2 r (0 : Fin 1)) * x5 (ix2 j q))
    + shapeCast Cert.KernelIdeal.S1x128 x6 _ (ix2 (0 : Fin 1) q))
  rw [Cert.LibLayout.shapeCast_a_a1_apply, shapeCast_a_1a_apply]
  rfl

/-! ## Layer 3 -/

theorem e83 : val_main_v83 (F := Ideal) x2 = degNorm (F := Ideal) x2 := rfl

/-- The third layer aggregates the second layer's output. -/
theorem e96 : val_main_v96 (F := Ideal) x0 x1 x2 x3 x4 x5 x6
    = agg (F := Ideal) (val_main_v69 (F := Ideal) x0 x1 x2 x3 x4 x5 x6) x1 x2 := rfl

theorem lidx100 (r : Fin 50000) (q : Fin 64) (k : Fin 128) : lidx_main_v100 (ix2 r q) k = ix2 r k :=
  funext fun a => Fin.ext (by match a with | ⟨0, _⟩ => rfl | ⟨1, _⟩ => rfl)
theorem ridx100 (r : Fin 50000) (q : Fin 64) (k : Fin 128) : ridx_main_v100 (ix2 r q) k = ix2 k q :=
  funext fun a => Fin.ext (by match a with | ⟨0, _⟩ => rfl | ⟨1, _⟩ => rfl)
theorem idx97_98 (r : Fin 50000) (k : Fin 128) : idx_main_v97 (idx_main_v98 (ix2 r k)) = ix1 r :=
  funext fun a => Fin.ext (by match a with | ⟨0, _⟩ => rfl)
theorem idx101_102 (r : Fin 50000) (q : Fin 64) : idx_main_v101 (idx_main_v102 (ix2 r q)) = ix1 q :=
  funext fun a => Fin.ext (by match a with | ⟨0, _⟩ => rfl)

/-- The last layer of the reference is the layer function, without the maximum, of the second layer's output. -/
theorem layer3_eq : val_main_v103 (F := Ideal) x0 x1 x2 x3 x4 x5 x6 x7 x8
    = gcn64 (fun z => z) (val_main_v69 (F := Ideal) x0 x1 x2 x3 x4 x5 x6) x1 x2 x7 x8 := by
  funext i
  obtain ⟨r, q, rfl⟩ : ∃ (r : Fin 50000) (q : Fin 64), i = ix2 r q := ⟨i 0, i 1, eq_ix2 i⟩
  rw [val_main_v103_apply, val_main_v100_apply, val_main_v102_apply, val_main_v101_apply, idx101_102]
  have hk : ∀ k : Fin 128, val_main_v99 (F := Ideal) x0 x1 x2 x3 x4 x5 x6 (lidx_main_v100 (ix2 r q) k) * x7 (ridx_main_v100 (ix2 r q) k)
      = (agg (F := Ideal) (val_main_v69 (F := Ideal) x0 x1 x2 x3 x4 x5 x6) x1 x2 (ix2 r k) * degNorm (F := Ideal) x2 (ix1 r))
          * x7 (ix2 k q) := fun k => by
    rw [lidx100, ridx100, val_main_v99_apply, val_main_v98_apply, val_main_v97_apply, idx97_98, e83, e96]
    rfl
  rw [Finset.sum_congr rfl fun k _ => hk k]
  unfold gcn64 Cert.Layer.layer Cert.Layer.layerAt
  show _ = (∑ j : Fin 128, agg (F := Ideal) (val_main_v69 (F := Ideal) x0 x1 x2 x3 x4 x5 x6) x1 x2 (ix2 r j)
      * shapeCast Cert.KernelIdeal.S50000x1 (degNorm (F := Ideal) x2) _ (ix2 r (0 : Fin 1)) * x7 (ix2 j q))
    + shapeCast Cert.KernelIdeal.S1x64 x8 _ (ix2 (0 : Fin 1) q)
  rw [Cert.LibLayout.shapeCast_a_a1_apply, shapeCast_a_1a_apply]
  rfl

/-! ## The whole reference -/

/-- The reference's result term is the network function of its arguments. -/
theorem result_eq (m : (ℓ : Loc nD τ sig) → Buf (Elt Ideal) ℓ) (c : Dev nD) :
    Cert.ReferenceIdeal.Value.res_main_v103 m c
      = net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  rw [val_main_v103_eq, layer3_eq, layer2_eq, layer1_eq]
  rfl

end Cert.ReferenceIdeal.Hand

end
-- ==== Proof.lean ====
/-
  Three graph-convolution layers (norm = 'both'), relu after the first two: the kernel program against its reference.

  Both programs compute, per layer, the degree normalisations (reciprocal square roots of clamped edge counts), scale the
  features by the source normalisation, gather the rows of the edges' sources and scatter-add them at the edges'
  destinations. That part is the same chain of host operations in both and is carried as the functions `degNorm` and
  `agg`. The rest of a layer — scale row v by the destination normalisation at v, multiply by the weights, add the
  bias, maximum with zero — is done by the reference on whole arrays and by the kernel program in a launch over ten
  blocks of 5000 rows. At the exact instance the roundings to bf16 are the identity and a matrix product into a zero
  accumulator is the plain sum of products, so entry (r, q) is  post (∑ k, (agg (r, k) · norm r) · W (k, q) + b q)  on
  both sides (`Cert.Layer.layer`); a row of the result depends on the same row of the inputs only, so the ten blocks
  assemble to the same array. No law of the extended reals beyond this rearrangement is used, and the precondition is
  never opened.

  The three frames: the two kernel programs' by the generated frame certificates; the reference's is its generated run
  with the result dropped. The idealization rewrote nothing, so the fourth conjunct is `True`.
-/
import proofs.«101985_j61435212202423_1_alg».proof.Defs
import proofs.«101985_j61435212202423_1_alg».proof.Proof.Gen.Kernel
import proofs.«101985_j61435212202423_1_alg».proof.Proof.Gen.Kernel.Skeleton
import proofs.«101985_j61435212202423_1_alg».proof.Proof.Gen.Kernel.Launch
import proofs.«101985_j61435212202423_1_alg».proof.Proof.Gen.Kernel.Points
import proofs.«101985_j61435212202423_1_alg».proof.Proof.Gen.Kernel.Frame
import proofs.«101985_j61435212202423_1_alg».proof.Proof.Gen.KernelIdeal
import proofs.«101985_j61435212202423_1_alg».proof.Proof.Gen.KernelIdeal.Skeleton
import proofs.«101985_j61435212202423_1_alg».proof.Proof.Gen.KernelIdeal.Launch
import proofs.«101985_j61435212202423_1_alg».proof.Proof.Gen.KernelIdeal.Points
import proofs.«101985_j61435212202423_1_alg».proof.Proof.Gen.KernelIdeal.Frame
import proofs.«101985_j61435212202423_1_alg».proof.Proof.Gen.ReferenceIdeal
import proofs.«101985_j61435212202423_1_alg».proof.Proof.Gen.Pre_finite_inputs
import proofs.«101985_j61435212202423_1_alg».proof.Proof.Gen.ReferenceIdeal.Run
import proofs.«101985_j61435212202423_1_alg».proof.Proof.Gen.ReferenceIdeal.Read
import proofs.«101985_j61435212202423_1_alg».proof.Proof.KernelRun
import proofs.«101985_j61435212202423_1_alg».proof.Proof.RefEq
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the nine arguments, both idealized programs end with the network function of the
    arguments in their result buffers. -/
theorem algebraic : Cert.algebraic_KernelIdeal_ReferenceIdeal := by
  intro m ρ m' ρ' _ hagree
  refine ⟨_, Cert.KernelIdeal.Hand.run_net m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Hand.result_eq, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
